-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x112x112x64 : Shape := ⟨4, ![16, 112, 112, 64]⟩
abbrev S_ : Shape := ⟨0, ![]⟩

class Facts : Prop where
  bcast_S_S16x112x112x64 : S_.BroadcastsInDim S16x112x112x64 (![] : Fin 0 → Fin S16x112x112x64.rank)
  reducesTo_S16x112x112x64_S_d0_1_2_3 : S16x112x112x64.ReducesTo [0, 1, 2, 3] S_
  h_S_ : 0 < S_.numel

variable [Facts]

def fn {F : FTy → Type} [FloatOps F] (main_arg0 : FVec F S16x112x112x64 .f32) : IVec S_ 1 :=
  let main_v0 : FVec F S16x112x112x64 .f32 := Host.absf main_arg0
  let main_cst : FVec F S_ .f32 := constant S_ .f32 0x7F800000#32
  let main_v1 : FVec F S16x112x112x64 .f32 := broadcastInDim S16x112x112x64 ![] bcast_S_S16x112x112x64 main_cst
  let main_v2 : IVec S16x112x112x64 1 := cmpf .olt main_v0 main_v1
  let main_c : IVec S_ 1 := constantI S_ 1 1#1
  let main_v3 : IVec S_ 1 := (fun x v => Host.reduce IntOp.andi x v reducesTo_S16x112x112x64_S_d0_1_2_3 h_S_) main_v2 main_c
  main_v3
-- ==== Kernel.lean ====
abbrev S16x112x112x64 : Shape := ⟨4, ![16, 112, 112, 64]⟩
abbrev S16x110x110x576 : Shape := ⟨4, ![16, 110, 110, 576]⟩
abbrev S1x112x112x64 : Shape := ⟨4, ![1, 112, 112, 64]⟩
abbrev S1x22x110x576 : Shape := ⟨4, ![1, 22, 110, 576]⟩
abbrev S1x22x110x64 : Shape := ⟨4, ![1, 22, 110, 64]⟩
abbrev S22x110x64 : Shape := ⟨3, ![22, 110, 64]⟩
abbrev S16x12100x576 : Shape := ⟨3, ![16, 12100, 576]⟩

abbrev nBuf : Space → Nat
  | .hbm => 3
  | .vmem => 4
  | .smem => 0
  | _ => 0

abbrev bufTy : (tb : Table) → Fin (tcTables nBuf tb) → BufTy
  | .hbm, ⟨0, _⟩ => ⟨S16x112x112x64, .f32⟩
  | .hbm, ⟨1, _⟩ => ⟨S16x110x110x576, .f32⟩
  | .hbm, ⟨2, _⟩ => ⟨S16x12100x576, .f32⟩
  | .local _ .vmem, ⟨0, _⟩ => ⟨S1x112x112x64, .f32⟩
  | .local _ .vmem, ⟨1, _⟩ => ⟨S1x112x112x64, .f32⟩
  | .local _ .vmem, ⟨2, _⟩ => ⟨S1x22x110x576, .f32⟩
  | .local _ .vmem, ⟨3, _⟩ => ⟨S1x22x110x576, .f32⟩
  | _, _ => ⟨S16x112x112x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 5], ![false, false]⟩

def k0_mult1 (i : grid0.Coords) : BitVec 32 :=
  let arg1 : BitVec 32 := BitVec.ofNat 32 (i 1).val
  let c22_i32 : BitVec 32 := 22#32
  let v0 : BitVec 32 := Scalar.muli arg1 c22_i32
  v0
def k0_off1 (i : grid0.Coords) (c0_i32 : BitVec 32) : Fin 4 → Nat :=
  let c0 : Index := 0#32
  let arg1 : BitVec 32 := BitVec.ofNat 32 (i 1).val
  let c22_i32 : BitVec 32 := 22#32
  let v0 : BitVec 32 := Scalar.muli arg1 c22_i32
  let v1 : BitVec 32 := v0
  let v2 : BitVec 32 := Scalar.addi v1 c0_i32
  let v3 : Index := Scalar.indexCast v2
  let c0_0 : Index := 0#32
  let c0_1 : Index := 0#32
  ![0, v3.toNat, 0, 0]
def k0_off2 (i : grid0.Coords) (c0_i32_6 : BitVec 32) : Fin 4 → Nat :=
  let c0_7 : Index := 0#32
  let arg1 : BitVec 32 := BitVec.ofNat 32 (i 1).val
  let c22_i32 : BitVec 32 := 22#32
  let v0 : BitVec 32 := Scalar.muli arg1 c22_i32
  let v1 : BitVec 32 := v0
  let v9 : BitVec 32 := Scalar.addi v1 c0_i32_6
  let v10 : Index := Scalar.indexCast v9
  let c1 : Index := 1#32
  let c0_8 : Index := 0#32
  ![0, v10.toNat, 1, 0]
def k0_off3 (i : grid0.Coords) (c0_i32_12 : BitVec 32) : Fin 4 → Nat :=
  let c0_13 : Index := 0#32
  let arg1 : BitVec 32 := BitVec.ofNat 32 (i 1).val
  let c22_i32 : BitVec 32 := 22#32
  let v0 : BitVec 32 := Scalar.muli arg1 c22_i32
  let v1 : BitVec 32 := v0
  let v16 : BitVec 32 := Scalar.addi v1 c0_i32_12
  let v17 : Index := Scalar.indexCast v16
  let c2 : Index := 2#32
  let c0_14 : Index := 0#32
  ![0, v17.toNat, 2, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x112x112x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x22x110x576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  h_S1x22x110x64 : 0 < S1x22x110x64.numel
  shapeCasts_S1x22x110x64_S22x110x64 : S1x22x110x64.ShapeCasts S22x110x64
  inb_S1x22x110x576_S1x22x110x64_0_0_0_0 : ∀ a, (![0, 0, 0, 0] : Fin 4 → Nat) a + S1x22x110x64.size a ≤ S1x22x110x576.size a
  shapeCasts_S22x110x64_S1x22x110x64 : S22x110x64.ShapeCasts S1x22x110x64
  inb_S1x22x110x576_S1x22x110x64_0_0_0_64 : ∀ a, (![0, 0, 0, 64] : Fin 4 → Nat) a + S1x22x110x64.size a ≤ S1x22x110x576.size a
  inb_S1x22x110x576_S1x22x110x64_0_0_0_128 : ∀ a, (![0, 0, 0, 128] : Fin 4 → Nat) a + S1x22x110x64.size a ≤ S1x22x110x576.size a
  inb_S1x22x110x576_S1x22x110x64_0_0_0_192 : ∀ a, (![0, 0, 0, 192] : Fin 4 → Nat) a + S1x22x110x64.size a ≤ S1x22x110x576.size a
  inb_S1x22x110x576_S1x22x110x64_0_0_0_256 : ∀ a, (![0, 0, 0, 256] : Fin 4 → Nat) a + S1x22x110x64.size a ≤ S1x22x110x576.size a
  inb_S1x22x110x576_S1x22x110x64_0_0_0_320 : ∀ a, (![0, 0, 0, 320] : Fin 4 → Nat) a + S1x22x110x64.size a ≤ S1x22x110x576.size a
  inb_S1x22x110x576_S1x22x110x64_0_0_0_384 : ∀ a, (![0, 0, 0, 384] : Fin 4 → Nat) a + S1x22x110x64.size a ≤ S1x22x110x576.size a
  inb_S1x22x110x576_S1x22x110x64_0_0_0_448 : ∀ a, (![0, 0, 0, 448] : Fin 4 → Nat) a + S1x22x110x64.size a ≤ S1x22x110x576.size a
  inb_S1x22x110x576_S1x22x110x64_0_0_0_512 : ∀ a, (![0, 0, 0, 512] : Fin 4 → Nat) a + S1x22x110x64.size a ≤ S1x22x110x576.size a
  shapeCasts_S16x110x110x576_S16x12100x576 : S16x110x110x576.ShapeCasts S16x12100x576
  hrank0 : 0 < grid0.rank
  k0_mult1_dvd : ∀ i : grid0.Coords, 22 ∣ (k0_mult1 i).toNat
  k0_off1_inb : ∀ i : grid0.Coords, ∀ (r : Fin 3), ∀ a, (k0_off1 i (BitVec.ofNat 32 r.val)) a + S1x22x110x64.size a ≤ S1x112x112x64.size a
  k0_off2_inb : ∀ i : grid0.Coords, ∀ (r : Fin 3), ∀ a, (k0_off2 i (BitVec.ofNat 32 r.val)) a + S1x22x110x64.size a ≤ S1x112x112x64.size a
  k0_off3_inb : ∀ i : grid0.Coords, ∀ (r : Fin 3), ∀ a, (k0_off3 i (BitVec.ofNat 32 r.val)) a + S1x22x110x64.size a ≤ S1x112x112x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x112x112x64.size a ≤ S16x112x112x64.size a
  hwx0_0 : ∀ i : grid0.Coords, EltTy.bits .f32 = 32 ∨ (Rect.block (s := S16x112x112x64) S1x112x112x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x22x110x576.size a ≤ S16x110x110x576.size a
  hwx0_1 : ∀ i : grid0.Coords, EltTy.bits .f32 = 32 ∨ (Rect.block (s := S16x110x110x576) S1x22x110x576.size (cc0_transform_1 i) (hinb0_1 i)).WholeWords (EltTy.packing .f32)

variable [Facts₀]

abbrev win0_0 : Pipeline.Window sig grid0 :=
  Pipeline.Window.ofSpec (Memref.whole main_arg0) S1x112x112x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x22x110x576.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x112x112x64 : Shape := ⟨4, ![16, 112, 112, 64]⟩
abbrev S110 : Shape := ⟨1, ![110]⟩
abbrev S110x1 : Shape := ⟨2, ![110, 1]⟩
abbrev S_ : Shape := ⟨0, ![]⟩
abbrev S3 : Shape := ⟨1, ![3]⟩
abbrev S1x3 : Shape := ⟨2, ![1, 3]⟩
abbrev S110x3 : Shape := ⟨2, ![110, 3]⟩
abbrev S110x3x1 : Shape := ⟨3, ![110, 3, 1]⟩
abbrev S16x110x3x112x64 : Shape := ⟨5, ![16, 110, 3, 112, 64]⟩
abbrev S16x110x3x110x3x64 : Shape := ⟨6, ![16, 110, 3, 110, 3, 64]⟩
abbrev S16x110x110x3x3x64 : Shape := ⟨6, ![16, 110, 110, 3, 3, 64]⟩
abbrev S16x12100x576 : Shape := ⟨3, ![16, 12100, 576]⟩

abbrev nBuf : Space → Nat
  | .hbm => 41
  | .vmem => 0
  | .smem => 0
  | _ => 0

abbrev bufTy : (tb : Table) → Fin (tcTables nBuf tb) → BufTy
  | .hbm, ⟨0, _⟩ => ⟨S16x112x112x64, .f32⟩
  | .hbm, ⟨1, _⟩ => ⟨S110, .i32⟩
  | .hbm, ⟨2, _⟩ => ⟨S110x1, .i32⟩
  | .hbm, ⟨3, _⟩ => ⟨S_, .i32⟩
  | .hbm, ⟨4, _⟩ => ⟨S110x1, .i32⟩
  | .hbm, ⟨5, _⟩ => ⟨S110x1, .i32⟩
  | .hbm, ⟨6, _⟩ => ⟨S3, .i32⟩
  | .hbm, ⟨7, _⟩ => ⟨S1x3, .i32⟩
  | .hbm, ⟨8, _⟩ => ⟨S110x3, .i32⟩
  | .hbm, ⟨9, _⟩ => ⟨S110x3, .i32⟩
  | .hbm, ⟨10, _⟩ => ⟨S110x3, .i32⟩
  | .hbm, ⟨11, _⟩ => ⟨S110, .i32⟩
  | .hbm, ⟨12, _⟩ => ⟨S110x1, .i32⟩
  | .hbm, ⟨13, _⟩ => ⟨S_, .i32⟩
  | .hbm, ⟨14, _⟩ => ⟨S110x1, .i32⟩
  | .hbm, ⟨15, _⟩ => ⟨S110x1, .i32⟩
  | .hbm, ⟨16, _⟩ => ⟨S3, .i32⟩
  | .hbm, ⟨17, _⟩ => ⟨S1x3, .i32⟩
  | .hbm, ⟨18, _⟩ => ⟨S110x3, .i32⟩
  | .hbm, ⟨19, _⟩ => ⟨S110x3, .i32⟩
  | .hbm, ⟨20, _⟩ => ⟨S110x3, .i32⟩
  | .hbm, ⟨21, _⟩ => ⟨S_, .i32⟩
  | .hbm, ⟨22, _⟩ => ⟨S110x3, .i32⟩
  | .hbm, ⟨23, _⟩ => ⟨S110x3, .i1⟩
  | .hbm, ⟨24, _⟩ => ⟨S_, .i32⟩
  | .hbm, ⟨25, _⟩ => ⟨S110x3, .i32⟩
  | .hbm, ⟨26, _⟩ => ⟨S110x3, .i32⟩
  | .hbm, ⟨27, _⟩ => ⟨S110x3, .i32⟩
  | .hbm, ⟨28, _⟩ => ⟨S110x3x1, .i32⟩
  | .hbm, ⟨29, _⟩ => ⟨S16x110x3x112x64, .f32⟩
  | .hbm, ⟨30, _⟩ => ⟨S_, .i32⟩
  | .hbm, ⟨31, _⟩ => ⟨S110x3, .i32⟩
  | .hbm, ⟨32, _⟩ => ⟨S110x3, .i1⟩
  | .hbm, ⟨33, _⟩ => ⟨S_, .i32⟩
  | .hbm, ⟨34, _⟩ => ⟨S110x3, .i32⟩
  | .hbm, ⟨35, _⟩ => ⟨S110x3, .i32⟩
  | .hbm, ⟨36, _⟩ => ⟨S110x3, .i32⟩
  | .hbm, ⟨37, _⟩ => ⟨S110x3x1, .i32⟩
  | .hbm, ⟨38, _⟩ => ⟨S16x110x3x110x3x64, .f32⟩
  | .hbm, ⟨39, _⟩ => ⟨S16x110x110x3x3x64, .f32⟩
  | .hbm, ⟨40, _⟩ => ⟨S16x12100x576, .f32⟩
  | _, _ => ⟨S16x112x112x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c_1 : Ref sig .tc := ⟨.hbm, 21, rfl⟩
abbrev main_v18 : Ref sig .tc := ⟨.hbm, 22, rfl⟩
abbrev main_v19 : Ref sig .tc := ⟨.hbm, 23, rfl⟩
abbrev main_c_2 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_c_3 : Ref sig .tc := ⟨.hbm, 30, rfl⟩
abbrev main_v25 : Ref sig .tc := ⟨.hbm, 31, rfl⟩
abbrev main_v26 : Ref sig .tc := ⟨.hbm, 32, rfl⟩
abbrev main_c_4 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]

class Facts₀ : Prop where
  bcast_S110_S110x1_0 : S110.BroadcastsInDim S110x1 (![0] : Fin 1 → Fin S110x1.rank)
  bcast_S_S110x1 : S_.BroadcastsInDim S110x1 (![] : Fin 0 → Fin S110x1.rank)
  bcast_S3_S1x3_1 : S3.BroadcastsInDim S1x3 (![1] : Fin 1 → Fin S1x3.rank)
  bcast_S110x1_S110x3_0_1 : S110x1.BroadcastsInDim S110x3 (![0, 1] : Fin 2 → Fin S110x3.rank)
  bcast_S1x3_S110x3_0_1 : S1x3.BroadcastsInDim S110x3 (![0, 1] : Fin 2 → Fin S110x3.rank)
  bcast_S_S110x3 : S_.BroadcastsInDim S110x3 (![] : Fin 0 → Fin S110x3.rank)
  bcast_S110x3_S110x3x1_0_1 : S110x3.BroadcastsInDim S110x3x1 (![0, 1] : Fin 2 → Fin S110x3x1.rank)
  transposes_S16x110x3x110x3x64_S16x110x110x3x3x64_0_1_3_2_4_5 : S16x110x3x110x3x64.Transposes [0, 1, 3, 2, 4, 5] S16x110x110x3x3x64
  shapeCasts_S16x110x110x3x3x64_S16x12100x576 : S16x110x110x3x3x64.ShapeCasts S16x12100x576
  gather_S16x112x112x64_S110x3x1_S16x110x3x112x64_034_1_n_n_1_2_16111264_wf : GatherDims.WF S16x112x112x64 S110x3x1 S16x110x3x112x64 [0, 3, 4] [1] [] [1] [] 2 ![16, 1, 112, 64]
  gather_S16x110x3x112x64_S110x3x1_S16x110x3x110x3x64_0125_3_n_n_3_2_161103164_wf : GatherDims.WF S16x110x3x112x64 S110x3x1 S16x110x3x110x3x64 [0, 1, 2, 5] [3] [] [3] [] 2 ![16, 110, 3, 1, 64]

variable [Facts₀]

def gather_S16x112x112x64_S110x3x1_S16x110x3x112x64_034_1_n_n_1_2_16111264 : GatherDims S16x112x112x64 S110x3x1 S16x110x3x112x64 where
  offsetDims := [0, 3, 4]
  collapsedSliceDims := [1]
  operandBatchingDims := []
  startIndicesBatchingDims := []
  startIndexMap := [1]
  indexVectorDim := 2
  sliceSizes := ![16, 1, 112, 64]
  wf := gather_S16x112x112x64_S110x3x1_S16x110x3x112x64_034_1_n_n_1_2_16111264_wf
def gather_S16x110x3x112x64_S110x3x1_S16x110x3x110x3x64_0125_3_n_n_3_2_161103164 : GatherDims S16x110x3x112x64 S110x3x1 S16x110x3x110x3x64 where
  offsetDims := [0, 1, 2, 5]
  collapsedSliceDims := [3]
  operandBatchingDims := []
  startIndicesBatchingDims := []
  startIndexMap := [3]
  indexVectorDim := 2
  sliceSizes := ![16, 110, 3, 1, 64]
  wf := gather_S16x110x3x112x64_S110x3x1_S16x110x3x110x3x64_0125_3_n_n_3_2_161103164_wf

class Facts : Prop extends Facts₀ where

variable [Facts]
-- ==== Proof.Spec.lean ====
/-
  Patch extraction, as a function of the input array.

  The input is an array x[b, w, h, d] of shape [16, 112, 112, 64].  A 3x3 window slides over the two middle axes with
  stride one, so there are 110 x 110 window positions (oh, ov); the window at (oh, ov) holds the 3 x 3 x 64 elements
  x[b, oh + kh, ov + kw, d].  Flattening (kh, kw, d) row-major into one axis of 576 = 3 * 3 * 64 lanes, lane
  c = kh * 192 + kw * 64 + d, gives

      windows x [b, oh, ov, c] = x[b, oh + c / 192, ov + (c / 64) % 3, c % 64],

  an array of shape [16, 110, 110, 576]; flattening (oh, ov) row-major into one axis of 12100 = 110 * 110 rows gives the
  result, of shape [16, 12100, 576]:

      patches x [b, r, c] = x[b, r / 110 + c / 192, r % 110 + (c / 64) % 3, c % 64].

  Nothing is computed with the elements: the statements hold for elements of any type.
-/
import Idealize.ShloMosaic.PureOps.Ideal
import Idealize.ShloMosaic.Lib.ValueIdx
import Idealize.ShloMosaic.Lib.Pipeline.Value

noncomputable section

namespace Cert.Patch

open Idealize.ShloMosaic Idealize.ShloMosaic.ValueIdx

/-- The input's shape, the shape of the array of windows, and the result's shape. -/
abbrev SIn : Shape := ⟨4, ![16, 112, 112, 64]⟩
abbrev SWin : Shape := ⟨4, ![16, 110, 110, 576]⟩
abbrev SOut : Shape := ⟨3, ![16, 12100, 576]⟩

variable {α : Type}

/-- Lane `c` of the window at position `(oh, ov)` of batch `b`: the input at row `oh + c / 192`, column
    `ov + (c / 64) % 3`, depth `c % 64`. -/
def win (x : SIn.Idx → α) (b : Fin 16) (oh ov : Fin 110) (c : Fin 576) : α :=
  x (ix4 b (⟨oh.val + c.val / 192, by omega⟩ : Fin 112) (⟨ov.val + c.val / 64 % 3, by omega⟩ : Fin 112)
    (⟨c.val % 64, by omega⟩ : Fin 64))

/-- The array of windows, [16, 110, 110, 576]. -/
def windows (x : SIn.Idx → α) : SWin.Idx → α :=
  fun j => win x (j 0) (j 1) (j 2) (j 3)

/-- The result, [16, 12100, 576]: row `r` is the window at position `(r / 110, r % 110)`. -/
def patches (x : SIn.Idx → α) : SOut.Idx → α :=
  fun j => win x (j 0) (⟨(j 1).val / 110, by have := (j 1).isLt; simp at this; omega⟩ : Fin 110)
    (⟨(j 1).val % 110, by omega⟩ : Fin 110) (j 2)

theorem windows_apply (x : SIn.Idx → α) (b : Fin 16) (oh ov : Fin 110) (c : Fin 576) :
    windows x (ix4 b oh ov c) = win x b oh ov c := rfl

theorem patches_apply (x : SIn.Idx → α) (b : Fin 16) (r : Fin 12100) (c : Fin 576) :
    patches x (ix3 b r c) = win x b (⟨r.val / 110, by omega⟩ : Fin 110) (⟨r.val % 110, by omega⟩ : Fin 110) c := rfl

/-- Merging the two window-position axes of the array of windows, row-major, gives the result. -/
theorem shapeCast_windows (x : SIn.Idx → α) (h : SWin.ShapeCasts SOut) :
    shapeCast SOut (windows x) h = patches x := by
  funext j
  obtain ⟨b, r, c, rfl⟩ : ∃ (b : Fin 16) (r : Fin 12100) (c : Fin 576), j = ix3 b r c := ⟨j 0, j 1, j 2, eq_ix3 j⟩
  refine (shapeCast_apply (windows x) h (ix3 b r c)
    (ix4 b (⟨r.val / 110, by omega⟩ : Fin 110) (⟨r.val % 110, by omega⟩ : Fin 110) c) ?_).trans ?_
  · rw [Shape.rowMajor_val_four, Shape.rowMajor_val_three]
    show ((b.val * 110 + r.val / 110) * 110 + r.val % 110) * 576 + c.val = (b.val * 12100 + r.val) * 576 + c.val
    omega
  · rfl

end Cert.Patch

end
-- ==== Proof.Body.lean ====
/-
  What one grid point leaves in its output block.

  At grid point (b, t) the body sees the whole slab x0 = x[b] of shape [1, 112, 112, 64] and fills its output block of
  shape [1, 22, 110, 576] by nine stores: for kh, kw in {0, 1, 2} the 64 lanes from 64 * (3 * kh + kw) on receive the
  sub-slab of x0 that starts at row 22 * t + kh and column kw, 22 rows by 110 columns by 64 deep (the two shape casts
  around each load drop and restore the leading unit axis and cancel).  So the block is ONE function of x0:

      block[0, r, v, c] = x0[0, 22 * t + r + c / 192, v + (c / 64) % 3, c % 64],

  because lane c = 64 * (3 * kh + kw) + d with d < 64 has c / 192 = kh, (c / 64) % 3 = kw and c % 64 = d.  Each of the
  nine stores is the restriction of that function to its lanes, and the nine lane ranges tile the block.
-/
import proofs.«158176_j2362232013156_2_alg».proof.Proof.Gen.KernelIdeal.Frame
import Idealize.ShloMosaic.Lib.ValueIdx
import Idealize.ShloMosaic.Lib.Pipeline.Value

set_option maxRecDepth 16384

noncomputable section

namespace Cert.KernelIdeal.PatchBody

open Idealize.ShloMosaic Idealize.ShloMosaic.TcCoe Idealize.ShloMosaic.Tactic Idealize.ShloMosaic.ValueIdx
open Idealize.SL Idealize.SL.Sem
open Cert.KernelIdeal Cert.KernelIdeal.Gen

variable {F : FTy → Type} [FloatOps F]

variable {α : Type}

/-- Element (r, v, c) of the block written at row-tile `t`. -/
def blockAt (x0 : S1x112x112x64.Idx → α) (t : Fin 5) (r : Fin 22) (v : Fin 110) (c : Fin 576) : α :=
  x0 (ix4 (0 : Fin 1) (⟨22 * t.val + r.val + c.val / 192, by omega⟩ : Fin 112)
    (⟨v.val + c.val / 64 % 3, by omega⟩ : Fin 112) (⟨c.val % 64, by omega⟩ : Fin 64))

/-- The block written at row-tile `t`, as a function of the slab. -/
def blockOf (x0 : S1x112x112x64.Idx → α) (t : Fin 5) : S1x22x110x576.Idx → α :=
  fun y => blockAt x0 t (y 1) (y 2) (y 3)

/-- The row offset the body computes for tap `kh` at row-tile `t`: the 32-bit word `t * 22 + kh` does not wrap. -/
theorem row_word : ∀ (t : Fin 5) (kh : Fin 3),
    (Scalar.indexCast (Scalar.addi (Scalar.muli (BitVec.ofNat 32 t.val) 22#32) (BitVec.ofNat 32 kh.val))).toNat
      = 22 * t.val + kh.val := by decide

/-- One store's payload — the sub-slab from row `w = 22 * t + kh`, column `kw` — agrees, element by element, with the
    block function on the store's lanes `64 * (3 * kh + kw) ..+ 64`. -/
theorem piece_ok {Val : EltTy → Type} (x0 : S1x112x112x64.Idx → Val .f32) (t : Fin 5) (kh kw : Fin 3) (w : ℕ) (hw : w = 22 * t.val + kh.val)
    (inb : ∀ a, (![0, w, kw.val, 0] : Fin 4 → ℕ) a + S1x22x110x64.size a ≤ S1x112x112x64.size a)
    (lane : ℕ) (hlane : lane = 64 * (3 * kh.val + kw.val))
    (inb' : ∀ a, (![0, 0, 0, lane] : Fin 4 → ℕ) a + S1x22x110x64.size a ≤ S1x22x110x576.size a)
    (h1 : S1x22x110x64.ShapeCasts S22x110x64) (h2 : S22x110x64.ShapeCasts S1x22x110x64)
    (x : S1x22x110x64.Idx) :
    shapeCast S1x22x110x64 (shapeCast S22x110x64
        (View.ld x0 (Rect.unit (s := S1x112x112x64) ![0, w, kw.val, 0] S1x22x110x64.size inb)) h1) h2 x
      = blockOf x0 t ((Rect.unit (s := S1x22x110x576) ![0, 0, 0, lane] S1x22x110x64.size inb').emb x) := by
  subst hw hlane
  rw [shapeCast_shapeCast]
  have h0 : (x 0).val < 1 := (x 0).isLt
  have h3 : (x 3).val < 64 := (x 3).isLt
  have hkh : kh.val < 3 := kh.isLt
  have hkw : kw.val < 3 := kw.isLt
  show x0 _ = x0 _
  refine congrArg x0 (funext fun a => Fin.ext ?_)
  match a with
  | ⟨0, _⟩ => show 0 + 1 * (x 0).val = 0; omega
  | ⟨1, _⟩ =>
    show 22 * t.val + kh.val + 1 * (x 1).val
      = 22 * t.val + (0 + 1 * (x 1).val) + (64 * (3 * kh.val + kw.val) + 1 * (x 3).val) / 192
    omega
  | ⟨2, _⟩ =>
    show kw.val + 1 * (x 2).val = (0 + 1 * (x 2).val) + (64 * (3 * kh.val + kw.val) + 1 * (x 3).val) / 64 % 3
    omega
  | ⟨3, _⟩ => show 0 + 1 * (x 3).val = (64 * (3 * kh.val + kw.val) + 1 * (x 3).val) % 64; omega

/-- What the run leaves in the output block at a grid point with coordinates `i`, given the slab `x0` in the input block:
    the block function at row-tile `i 1`.  Each of the nine stores restricts that function to its lanes, and the stores
    tile the block. -/
theorem out0_eq (c : Dev nD) (i : grid0.Coords) (arg2 : Memref sig .tc .vmem S1x112x112x64 .f32) (harg2 : arg2.IsWhole)
    (arg3 : Memref sig .tc .vmem S1x22x110x576 .f32) (harg3 : arg3.IsWhole) (x0 : Vec F S1x112x112x64 .f32) :
    out0_A_1 c i arg2 harg2 arg3 harg3 x0 = blockOf x0 (i 1) := by
  unfold out0_A_1
  rw [View.read_writes_eq_canon _ _ _ (cover0_A_1 c i arg2 harg2 arg3 harg3 x0)]
  funext y
  refine View.canon_apply_of_pieces (blockOf x0 (i 1)) _ ?_ y (cover0_A_1 c i arg2 harg2 arg3 harg3 x0 y)
  unfold kernelRun0_A
  dsimp only
  sl_unfold_words
  simp only [View.readAt_eq_ld, harg2.read_unread]
  intro p hp
  simp only [List.mem_cons, List.not_mem_nil, or_false] at hp
  rcases hp with rfl | rfl | rfl | rfl | rfl | rfl | rfl | rfl | rfl
  · intro x; exact piece_ok x0 (i 1) 2 2 _ (row_word (i 1) 2) _ 512 rfl Facts₀.inb_S1x22x110x576_S1x22x110x64_0_0_0_512 _ _ x
  · intro x; exact piece_ok x0 (i 1) 2 1 _ (row_word (i 1) 2) _ 448 rfl Facts₀.inb_S1x22x110x576_S1x22x110x64_0_0_0_448 _ _ x
  · intro x; exact piece_ok x0 (i 1) 2 0 _ (row_word (i 1) 2) _ 384 rfl Facts₀.inb_S1x22x110x576_S1x22x110x64_0_0_0_384 _ _ x
  · intro x; exact piece_ok x0 (i 1) 1 2 _ (row_word (i 1) 1) _ 320 rfl Facts₀.inb_S1x22x110x576_S1x22x110x64_0_0_0_320 _ _ x
  · intro x; exact piece_ok x0 (i 1) 1 1 _ (row_word (i 1) 1) _ 256 rfl Facts₀.inb_S1x22x110x576_S1x22x110x64_0_0_0_256 _ _ x
  · intro x; exact piece_ok x0 (i 1) 1 0 _ (row_word (i 1) 1) _ 192 rfl Facts₀.inb_S1x22x110x576_S1x22x110x64_0_0_0_192 _ _ x
  · intro x; exact piece_ok x0 (i 1) 0 2 _ (row_word (i 1) 0) _ 128 rfl Facts₀.inb_S1x22x110x576_S1x22x110x64_0_0_0_128 _ _ x
  · intro x; exact piece_ok x0 (i 1) 0 1 _ (row_word (i 1) 0) _ 64 rfl Facts₀.inb_S1x22x110x576_S1x22x110x64_0_0_0_64 _ _ x
  · intro x; exact piece_ok x0 (i 1) 0 0 _ (row_word (i 1) 0) _ 0 rfl Facts₀.inb_S1x22x110x576_S1x22x110x64_0_0_0_0 _ _ x

end Cert.KernelIdeal.PatchBody

end
-- ==== Proof.Value.lean ====
/-
  The array of windows after the region, and the result after the reshape.

  Grid point (b, t) of the 16 x 5 grid reads the slab x[b] (block (b, 0, 0, 0) of the input, blocks of shape
  [1, 112, 112, 64]) and writes block (b, t, 0, 0) of the array of windows (blocks of shape [1, 22, 110, 576]).  What it
  writes is the block function at row-tile t of the slab, and that is exactly block (b, t, 0, 0) of `windows x`:
  element (0, r, v, c) of the block is element (b, 22 * t + r, v, c) of the array, and

      windows x [b, 22 * t + r, v, c] = x[b, 22 * t + r + c / 192, v + (c / 64) % 3, c % 64].

  The 80 blocks tile the array (row 22 * t + r of batch b lies in the block of point (b, t)), every point writes its
  block back, so after the region the array is `windows x`; the reshape that follows merges the two window-position axes
  and gives `patches x`.
-/
import proofs.«158176_j2362232013156_2_alg».proof.Proof.Gen.KernelIdeal.Frame
import proofs.«158176_j2362232013156_2_alg».proof.Proof.Body
import proofs.«158176_j2362232013156_2_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.PatchValue

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.PatchBody Cert.Patch

variable {F : FTy → Type} [FloatOps F]
variable (m : (ℓ : Loc nD τ sig) → Buf (Elt F) ℓ) (ρ : Dev nD → PrngReg)

/-- The printed index maps over the grid: the input's block index is (b, 0, 0, 0), the output's is (b, t, 0, 0), where
    (b, t) are the point's coordinates. -/
theorem idx_facts : ∀ t : Fin cfg0.N,
    win0_0.index t (0 : Fin 4) = win0_1.index t (0 : Fin 4)
    ∧ win0_0.index t (1 : Fin 4) = 0 ∧ win0_0.index t (2 : Fin 4) = 0 ∧ win0_0.index t (3 : Fin 4) = 0
    ∧ win0_1.index t (1 : Fin 4) = ((grid0.coords t) 1).val
    ∧ win0_1.index t (2 : Fin 4) = 0 ∧ win0_1.index t (3 : Fin 4) = 0
    ∧ win0_1.index t (0 : Fin 4) ≤ 15 ∧ win0_1.index t (1 : Fin 4) ≤ 4 :=
  (by decide +kernel : ∀ t : Fin grid0.N, _)

/-- Every block (b, t, 0, 0) of the array of windows is some point's. -/
theorem idx_onto : ∀ (q0 : Fin 16) (q1 : Fin 5), ∃ t : Fin cfg0.N, win0_1.index t = ![q0.val, q1.val, 0, 0] :=
  (by decide +kernel : ∀ (q0 : Fin 16) (q1 : Fin 5), ∃ t : Fin grid0.N, win0_1.index t = ![q0.val, q1.val, 0, 0])

/-- What point `t` writes back is block `t` of the array of windows of the input as the region finds it. -/
theorem flushed_eq (c : Dev nD) (t : Fin cfg0.N) :
    (dats m 0 c).flushed 1 t = ((cfg0.win 1).blk t).view.read (Elt F) (windows (V m c main_arg0)) := by
  show (cfg0.win 1).cut (grid0.coords t) ((dats m 0 c).after 1 t) = _
  rw [after0_1]
  unfold outsAt0
  rw [out0_eq]
  obtain ⟨e0, e1, e2, e3, e4, e5, e6, e7, e8⟩ := idx_facts t
  funext y
  have hy0 : (y 0).val < 1 := (y 0).isLt
  have hy1 : (y 1).val < 22 := (y 1).isLt
  have hy2 : (y 2).val < 110 := (y 2).isLt
  have hy3 : (y 3).val < 576 := (y 3).isLt
  show V m c main_arg0 (((cfg0.win 0).blk t).view.emb _) = V m c main_arg0 _
  refine congrArg (V m c main_arg0) (funext fun a => Fin.ext ?_)
  match a with
  | ⟨0, _⟩ =>
    show win0_0.index t (0 : Fin 4) * 1 + 1 * 0 = win0_1.index t (0 : Fin 4) * 1 + 1 * (y 0).val
    omega
  | ⟨1, _⟩ =>
    show win0_0.index t (1 : Fin 4) * 112 + 1 * (22 * ((grid0.coords t) 1).val + (y 1).val + (y 3).val / 192)
      = (win0_1.index t (1 : Fin 4) * 22 + 1 * (y 1).val) + (win0_1.index t (3 : Fin 4) * 576 + 1 * (y 3).val) / 192
    omega
  | ⟨2, _⟩ =>
    show win0_0.index t (2 : Fin 4) * 112 + 1 * ((y 2).val + (y 3).val / 64 % 3)
      = (win0_1.index t (2 : Fin 4) * 110 + 1 * (y 2).val) + (win0_1.index t (3 : Fin 4) * 576 + 1 * (y 3).val) / 64 % 3
    omega
  | ⟨3, _⟩ =>
    show win0_0.index t (3 : Fin 4) * 64 + 1 * ((y 3).val % 64) = (win0_1.index t (3 : Fin 4) * 576 + 1 * (y 3).val) % 64
    omega

/-- An index of the array of windows is in point `t`'s block iff each coordinate is in the block's range on its axis. -/
theorem mem_blk (t : Fin cfg0.N) (i : S16x110x110x576.Idx) :
    i ∈ ((cfg0.win 1).blk t).view.set ↔ ∀ a : Fin 4, win0_1.index t a * S1x22x110x576.size a ≤ (i a).val
      ∧ (i a).val < win0_1.index t a * S1x22x110x576.size a + S1x22x110x576.size a := by
  show i ∈ ((View.whole main_v0).slice (win0_1.rect t)).set ↔ _
  rw [View.set_slice_whole, Rect.mem_set_unit]
  exact Iff.rfl

/-- Every index of the array of windows is in the block of a point that writes back: row `i 1` of batch `i 0` lies in
    the block of the point (i 0, i 1 / 22). -/
theorem cover (i : S16x110x110x576.Idx) :
    ∃ t : Fin cfg0.N, (cfg0.win 1).flush t = true ∧ i ∈ ((cfg0.win 1).blk t).view.set := by
  have hi0 : (i 0).val < 16 := (i 0).isLt
  have hi1 : (i 1).val < 110 := (i 1).isLt
  have hi2 : (i 2).val < 110 := (i 2).isLt
  have hi3 : (i 3).val < 576 := (i 3).isLt
  obtain ⟨t, ht⟩ := idx_onto ⟨(i 0).val, hi0⟩ ⟨(i 1).val / 22, by omega⟩
  have q0 : win0_1.index t (0 : Fin 4) = (i 0).val := congrFun ht 0
  have q1 : win0_1.index t (1 : Fin 4) = (i 1).val / 22 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 22 ≤ (i 1).val ∧ (i 1).val < win0_1.index t (1 : Fin 4) * 22 + 22; omega
  | ⟨2, _⟩ => show win0_1.index t (2 : Fin 4) * 110 ≤ (i 2).val ∧ (i 2).val < win0_1.index t (2 : Fin 4) * 110 + 110; omega
  | ⟨3, _⟩ => show win0_1.index t (3 : Fin 4) * 576 ≤ (i 3).val ∧ (i 3).val < win0_1.index t (3 : Fin 4) * 576 + 576; omega

/-- The array of windows after the region. -/
theorem final (c : Dev nD) :
    (dats m 0 c).arrAt 1 cfg0.N = windows (m ((c : Thread nD τ).loc main_arg0)) := by
  rw [(dats m 0 c).arrAt_eq_of_cover 1 (windows (V m c main_arg0)) (fun t _ => flushed_eq m c t) cover]
  rfl

/-- The result buffer after the reshape that follows the region: the array of windows with its two window-position axes
    merged, that is, the patches of the input. -/
theorem tail_eq (c : Dev nD) :
    Pipeline.afterTail₀ cfgs (dats m) 0 (V0 m) [hostOps1] c main_v1 = patches (m ((c : Thread nD τ).loc main_arg0)) := by
  unfold Pipeline.afterTail₀
  show StableHlo.after hostOps1 _ (Proc.devRef .tc main_v1) = _
  after_results
  have hA : Pipeline.withArrays (cfgs 0).spec c (V0 m c) (fun w => (dats m 0 c).arrAt w (cfgs 0).N) (Proc.tc.devRef main_v0)
      = windows (m ((c : Thread nD τ).loc main_arg0)) :=
    (Pipeline.withArrays_arr spec0 launch0.win.arr_inj c _ _ 1).trans (final m c)
  rw [hA]
  funext i
  exact congrFun (shapeCast_windows _ _) i

/-- The kernel's run, read: every weakly fair execution terminates with the result buffer at the patches of the input
    and the input unchanged. -/
theorem run : θ_run defs (onTc (τ := τ) (main (F := F))) ⟨m, fun _ => 0, ρ⟩ fun r => ∀ c : Dev nD,
      r.2.mem ((c : Thread nD τ).loc main_v1) = patches (m ((c : Thread nD τ).loc main_arg0))
      ∧ r.2.mem ((c : Thread nD τ).loc main_arg0) = m ((c : Thread nD τ).loc main_arg0) :=
  (θ_run defs _ _).mono (fun r h c => ⟨((h c).2 main_v1 (by decide)).trans (tail_eq m c),
      ((h c).1 0).trans (((dats m 0 c).arrAt_in 0 rfl _).trans ((A_eq m c 0).trans (V_main_arg0 m c)))⟩)
    (run_main m ρ)

end Cert.KernelIdeal.PatchValue

end
-- ==== Proof.RefIndex.lean ====
/-
  The two index arrays of the reference program, read at an index.

  Each is the array  idx[a, k, 0] = a + k  (a < 110, k < 3), computed on 32-bit words as  a * 1 + k  and then passed
  through the wrap of negative indices,  select (w < 0) (w + 112) w.  Since 0 <= a + k <= 111 the word is never
  negative, so the wrap leaves it, and read as a signed integer it is the natural number a + k.
-/
import proofs.«158176_j2362232013156_2_alg».proof.Proof.Gen.ReferenceIdeal.Read
import Idealize.ShloMosaic.Lib.ValueIdx

noncomputable section

namespace Cert.Patch.Ref

open Cert.ReferenceIdeal Cert.ReferenceIdeal.Gen Cert.ReferenceIdeal.Read Idealize.ShloMosaic Idealize.ShloMosaic.ValueIdx

/-- The word  a * 1 + k  on 32 bits. -/
def sumWord (a k : Nat) : BitVec 32 :=
  IntOp.addi (IntOp.muli (BitVec.ofNat 32 a) 1#32) (BitVec.ofNat 32 k)

/-- The wrap of a negative index into an axis of 112 elements. -/
def wrapWord (w : BitVec 32) : BitVec 32 :=
  Scalar.select (IntOp.cmpi .slt w 0#32) (IntOp.addi w 112#32) w

/-- The word  a * 1 + k  is the word of the natural number  a + k. -/
theorem sumWord_eq (a k : Nat) : sumWord a k = BitVec.ofNat 32 (a + k) := by
  unfold sumWord IntOp.addi IntOp.muli
  rw [BitVec.mul_one, BitVec.ofNat_add]

/-- For  a < 110  and  k < 3  the wrapped word, read signed, is  a + k. -/
theorem wrapWord_sumWord (a k : Nat) (ha : a < 110) (hk : k < 3) :
    (wrapWord (sumWord a k)).toInt.toNat = a + k := by
  rw [sumWord_eq]
  have hi : (BitVec.ofNat 32 (a + k)).toInt = ((a + k : Nat) : Int) := by
    have hn : (BitVec.ofNat 32 (a + k)).toNat = a + k := by
      rw [BitVec.toNat_ofNat]; exact Nat.mod_eq_of_lt (by omega)
    rw [BitVec.toInt_eq_toNat_of_lt (by rw [hn]; omega), hn]
  have hc : IntOp.cmpi .slt (BitVec.ofNat 32 (a + k)) 0#32 = 0#1 := by
    have hlt : (BitVec.ofNat 32 (a + k)).slt 0#32 = false := by
      rw [BitVec.slt_eq_decide, hi, BitVec.toInt_zero]
      exact decide_eq_false (by omega)
    show BitVec.ofBool ((BitVec.ofNat 32 (a + k)).slt 0#32) = 0#1
    rw [hlt]; rfl
  unfold wrapWord
  rw [hc, select_zero, hi]
  exact Int.toNat_natCast _

variable {F : FTy → Type} [FloatOps F]

/-- The first index array at  [a, k, 0]  is the wrapped word of  a * 1 + k. -/
theorem val_main_v23_ix (a : Fin 110) (k : Fin 3) (z : Fin 1) :
    val_main_v23 (F := F) (ix3 a k z) = wrapWord (sumWord a.val k.val) := by
  simp only [val_main_v23_apply, val_main_v22_apply, val_main_v19_apply, val_main_v21_apply, val_main_v8_apply,
    val_main_v6_apply, val_main_v7_apply, val_main_v3_apply, val_main_v1_apply, val_main_v2_apply, val_main_c_apply,
    val_main_v0_apply, val_main_v5_apply, val_main_v4_apply, val_main_v18_apply, val_main_c_1_apply, val_main_v20_apply,
    val_main_c_2_apply]
  rfl

/-- The second index array at  [a, k, 0]  is the wrapped word of  a * 1 + k. -/
theorem val_main_v30_ix (a : Fin 110) (k : Fin 3) (z : Fin 1) :
    val_main_v30 (F := F) (ix3 a k z) = wrapWord (sumWord a.val k.val) := by
  simp only [val_main_v30_apply, val_main_v29_apply, val_main_v26_apply, val_main_v28_apply, val_main_v17_apply,
    val_main_v15_apply, val_main_v16_apply, val_main_v12_apply, val_main_v10_apply, val_main_v11_apply, val_main_c_0_apply,
    val_main_v9_apply, val_main_v14_apply, val_main_v13_apply, val_main_v25_apply, val_main_c_3_apply, val_main_v27_apply,
    val_main_c_4_apply]
  rfl

end Cert.Patch.Ref

end
-- ==== Proof.RefGather.lean ====
/-
  The two gathers of the reference program, read at an index.

  The first takes, for every window row  oh  and every row offset  kh,  the slab  x[:, oh + kh, :, :]  of the input:
      p[b, oh, kh, h, d] = x[b, oh + kh, h, d].
  The second takes, for every window column  ov  and every column offset  kw,  the slab  p[:, :, :, ov + kw, :]:
      q[b, oh, kh, ov, kw, d] = p[b, oh, kh, ov + kw, d].
  On the gathered axis the operand coordinate is the start index, read signed and clamped to the axis; the start index
  is  oh + kh  (resp.  ov + kw),  at most 111, so the clamp leaves it.  On every other operand axis the start is zero
  and the coordinate is the result's coordinate on the matching offset axis.
-/
import proofs.«158176_j2362232013156_2_alg».proof.Proof.RefIndex
import Idealize.ShloMosaic.Lib.ValueIdxRank6

noncomputable section

namespace Cert.Patch.Ref

open Cert.ReferenceIdeal Cert.ReferenceIdeal.Gen Cert.ReferenceIdeal.Read Idealize.ShloMosaic Idealize.ShloMosaic.ValueIdx

variable {F : FTy → Type} [FloatOps F]

local notation "D1" => gather_S16x112x112x64_S110x3x1_S16x110x3x112x64_034_1_n_n_1_2_16111264

/-- The first gather:  p[b, oh, kh, h, d] = x[b, oh + kh, h, d]. -/
theorem val_main_v24_ix (x0 : (⟨S16x112x112x64, .f32⟩ : BufTy).Contents (Elt F)) (b : Fin 16) (oh : Fin 110) (kh : Fin 3)
    (h : Fin 112) (d : Fin 64) :
    val_main_v24 (F := F) x0 (ix5 b oh kh h d) = x0 (ix4 b (⟨oh.val + kh.val, by omega⟩ : Fin 112) h d) := by
  unfold val_main_v24 Host.gather
  refine congrArg x0 (funext fun a => Fin.ext ?_)
  match a with
  | ⟨0, _⟩ =>
    show GatherDims.start D1 (ix5 b oh kh h d) (val_main_v23 (F := F)) 0 + GatherDims.batchCoord D1 (ix5 b oh kh h d) 0
      + GatherDims.offCoord D1 (ix5 b oh kh h d) 0 = b.val
    rw [GatherDims.batchCoord_eq_zero _ _ _ List.not_mem_nil]
    have hs : GatherDims.start D1 (ix5 b oh kh h d) (val_main_v23 (F := F)) 0 = 0 := by
      unfold GatherDims.start; rw [dif_neg (by decide)]
    have ho : GatherDims.offCoord D1 (ix5 b oh kh h d) 0 = b.val := by
      unfold GatherDims.offCoord; rw [dif_pos (by decide)]; rfl
    rw [hs, ho]; omega
  | ⟨1, _⟩ =>
    show GatherDims.start D1 (ix5 b oh kh h d) (val_main_v23 (F := F)) 1 + GatherDims.batchCoord D1 (ix5 b oh kh h d) 1
      + GatherDims.offCoord D1 (ix5 b oh kh h d) 1 = oh.val + kh.val
    rw [GatherDims.batchCoord_eq_zero _ _ _ List.not_mem_nil,
      GatherDims.offCoord_eq_zero _ _ _ (fun hm => ((GatherDims.mem_sKept _ _).mp hm).1 (List.mem_singleton.mpr rfl))]
    have hs : GatherDims.start D1 (ix5 b oh kh h d) (val_main_v23 (F := F)) 1 = oh.val + kh.val := by
      unfold GatherDims.start
      rw [dif_pos (show (1 : Fin 4) ∈ GatherDims.startIndexMap D1 from List.mem_singleton.mpr rfl)]
      have hsi : GatherDims.siIdx D1 (ix5 b oh kh h d) ⟨List.idxOf (1 : Fin 4) (GatherDims.startIndexMap D1),
          List.idxOf_lt_length_iff.2 (List.mem_singleton.mpr rfl)⟩ = ix3 oh kh (0 : Fin 1) := by
        funext c; refine Fin.ext ?_
        match c with
        | ⟨0, _⟩ => rfl
        | ⟨1, _⟩ => rfl
        | ⟨2, _⟩ => rfl
      rw [hsi, val_main_v23_ix, wrapWord_sumWord _ _ oh.isLt kh.isLt]
      show min (oh.val + kh.val) (112 - 1) = oh.val + kh.val
      omega
    rw [hs]; omega
  | ⟨2, _⟩ =>
    show GatherDims.start D1 (ix5 b oh kh h d) (val_main_v23 (F := F)) 2 + GatherDims.batchCoord D1 (ix5 b oh kh h d) 2
      + GatherDims.offCoord D1 (ix5 b oh kh h d) 2 = h.val
    rw [GatherDims.batchCoord_eq_zero _ _ _ List.not_mem_nil]
    have hs : GatherDims.start D1 (ix5 b oh kh h d) (val_main_v23 (F := F)) 2 = 0 := by
      unfold GatherDims.start; rw [dif_neg (by decide)]
    have ho : GatherDims.offCoord D1 (ix5 b oh kh h d) 2 = h.val := by
      unfold GatherDims.offCoord; rw [dif_pos (by decide)]; rfl
    rw [hs, ho]; omega
  | ⟨3, _⟩ =>
    show GatherDims.start D1 (ix5 b oh kh h d) (val_main_v23 (F := F)) 3 + GatherDims.batchCoord D1 (ix5 b oh kh h d) 3
      + GatherDims.offCoord D1 (ix5 b oh kh h d) 3 = d.val
    rw [GatherDims.batchCoord_eq_zero _ _ _ List.not_mem_nil]
    have hs : GatherDims.start D1 (ix5 b oh kh h d) (val_main_v23 (F := F)) 3 = 0 := by
      unfold GatherDims.start; rw [dif_neg (by decide)]
    have ho : GatherDims.offCoord D1 (ix5 b oh kh h d) 3 = d.val := by
      unfold GatherDims.offCoord; rw [dif_pos (by decide)]; rfl
    rw [hs, ho]; omega

local notation "D2" => gather_S16x110x3x112x64_S110x3x1_S16x110x3x110x3x64_0125_3_n_n_3_2_161103164

/-- The second gather:  q[b, oh, kh, ov, kw, d] = p[b, oh, kh, ov + kw, d]. -/
theorem val_main_v31_ix (x0 : (⟨S16x112x112x64, .f32⟩ : BufTy).Contents (Elt F)) (b : Fin 16) (oh : Fin 110) (kh : Fin 3)
    (ov : Fin 110) (kw : Fin 3) (d : Fin 64) :
    val_main_v31 (F := F) x0 (ix6 b oh kh ov kw d)
      = val_main_v24 (F := F) x0 (ix5 b oh kh (⟨ov.val + kw.val, by omega⟩ : Fin 112) d) := by
  unfold val_main_v31 Host.gather
  generalize val_main_v24 (F := F) x0 = p
  refine congrArg p (funext fun a => Fin.ext ?_)
  match a with
  | ⟨0, _⟩ =>
    show GatherDims.start D2 (ix6 b oh kh ov kw d) (val_main_v30 (F := F)) 0 + GatherDims.batchCoord D2 (ix6 b oh kh ov kw d) 0
      + GatherDims.offCoord D2 (ix6 b oh kh ov kw d) 0 = b.val
    rw [GatherDims.batchCoord_eq_zero _ _ _ List.not_mem_nil]
    have hs : GatherDims.start D2 (ix6 b oh kh ov kw d) (val_main_v30 (F := F)) 0 = 0 := by
      unfold GatherDims.start; rw [dif_neg (by decide)]
    have ho : GatherDims.offCoord D2 (ix6 b oh kh ov kw d) 0 = b.val := by
      unfold GatherDims.offCoord; rw [dif_pos (by decide)]; rfl
    rw [hs, ho]; omega
  | ⟨1, _⟩ =>
    show GatherDims.start D2 (ix6 b oh kh ov kw d) (val_main_v30 (F := F)) 1 + GatherDims.batchCoord D2 (ix6 b oh kh ov kw d) 1
      + GatherDims.offCoord D2 (ix6 b oh kh ov kw d) 1 = oh.val
    rw [GatherDims.batchCoord_eq_zero _ _ _ List.not_mem_nil]
    have hs : GatherDims.start D2 (ix6 b oh kh ov kw d) (val_main_v30 (F := F)) 1 = 0 := by
      unfold GatherDims.start; rw [dif_neg (by decide)]
    have ho : GatherDims.offCoord D2 (ix6 b oh kh ov kw d) 1 = oh.val := by
      unfold GatherDims.offCoord; rw [dif_pos (by decide)]; rfl
    rw [hs, ho]; omega
  | ⟨2, _⟩ =>
    show GatherDims.start D2 (ix6 b oh kh ov kw d) (val_main_v30 (F := F)) 2 + GatherDims.batchCoord D2 (ix6 b oh kh ov kw d) 2
      + GatherDims.offCoord D2 (ix6 b oh kh ov kw d) 2 = kh.val
    rw [GatherDims.batchCoord_eq_zero _ _ _ List.not_mem_nil]
    have hs : GatherDims.start D2 (ix6 b oh kh ov kw d) (val_main_v30 (F := F)) 2 = 0 := by
      unfold GatherDims.start; rw [dif_neg (by decide)]
    have ho : GatherDims.offCoord D2 (ix6 b oh kh ov kw d) 2 = kh.val := by
      unfold GatherDims.offCoord; rw [dif_pos (by decide)]; rfl
    rw [hs, ho]; omega
  | ⟨3, _⟩ =>
    show GatherDims.start D2 (ix6 b oh kh ov kw d) (val_main_v30 (F := F)) 3 + GatherDims.batchCoord D2 (ix6 b oh kh ov kw d) 3
      + GatherDims.offCoord D2 (ix6 b oh kh ov kw d) 3 = ov.val + kw.val
    rw [GatherDims.batchCoord_eq_zero _ _ _ List.not_mem_nil,
      GatherDims.offCoord_eq_zero _ _ _ (fun hm => ((GatherDims.mem_sKept _ _).mp hm).1 (List.mem_singleton.mpr rfl))]
    have hs : GatherDims.start D2 (ix6 b oh kh ov kw d) (val_main_v30 (F := F)) 3 = ov.val + kw.val := by
      unfold GatherDims.start
      rw [dif_pos (show (3 : Fin 5) ∈ GatherDims.startIndexMap D2 from List.mem_singleton.mpr rfl)]
      have hsi : GatherDims.siIdx D2 (ix6 b oh kh ov kw d) ⟨List.idxOf (3 : Fin 5) (GatherDims.startIndexMap D2),
          List.idxOf_lt_length_iff.2 (List.mem_singleton.mpr rfl)⟩ = ix3 ov kw (0 : Fin 1) := by
        funext c; refine Fin.ext ?_
        match c with
        | ⟨0, _⟩ => rfl
        | ⟨1, _⟩ => rfl
        | ⟨2, _⟩ => rfl
      rw [hsi, val_main_v30_ix, wrapWord_sumWord _ _ ov.isLt kw.isLt]
      show min (ov.val + kw.val) (112 - 1) = ov.val + kw.val
      omega
    rw [hs]; omega
  | ⟨4, _⟩ =>
    show GatherDims.start D2 (ix6 b oh kh ov kw d) (val_main_v30 (F := F)) 4 + GatherDims.batchCoord D2 (ix6 b oh kh ov kw d) 4
      + GatherDims.offCoord D2 (ix6 b oh kh ov kw d) 4 = d.val
    rw [GatherDims.batchCoord_eq_zero _ _ _ List.not_mem_nil]
    have hs : GatherDims.start D2 (ix6 b oh kh ov kw d) (val_main_v30 (F := F)) 4 = 0 := by
      unfold GatherDims.start; rw [dif_neg (by decide)]
    have ho : GatherDims.offCoord D2 (ix6 b oh kh ov kw d) 4 = d.val := by
      unfold GatherDims.offCoord; rw [dif_pos (by decide)]; rfl
    rw [hs, ho]; omega

end Cert.Patch.Ref

end
-- ==== Proof.RefValue.lean ====
/-
  The reference program's result is the patch extraction of the input.

  After the two gathers  q[b, oh, kh, ov, kw, d] = x[b, oh + kh, ov + kw, d].  The transpose exchanges the axes  kh  and
  ov,  t[b, oh, ov, kh, kw, d] = q[b, oh, kh, ov, kw, d],  and the reshape merges  (oh, ov)  into the row
  r = oh * 110 + ov  and  (kh, kw, d)  into the lane  c = kh * 192 + kw * 64 + d,  both row-major.  So the result at
  (b, r, c)  is  t  at  (b, r / 110, r % 110, c / 192, (c / 64) % 3, c % 64),  which is
  x[b, r / 110 + c / 192, r % 110 + (c / 64) % 3, c % 64].
-/
import proofs.«158176_j2362232013156_2_alg».proof.Proof.RefGather
import proofs.«158176_j2362232013156_2_alg».proof.Proof.Spec
import Idealize.ShloMosaic.Lib.Pipeline.Value

noncomputable section

namespace Cert.Patch.Ref

open Cert.ReferenceIdeal Cert.ReferenceIdeal.Gen Cert.ReferenceIdeal.Read Idealize.ShloMosaic Idealize.ShloMosaic.ValueIdx

variable {F : FTy → Type} [FloatOps F]

/-- The transposed array:  t[b, oh, ov, kh, kw, d] = x[b, oh + kh, ov + kw, d]. -/
theorem val_main_v32_ix (x0 : (⟨S16x112x112x64, .f32⟩ : BufTy).Contents (Elt F)) (b : Fin 16) (oh ov : Fin 110) (kh kw : Fin 3)
    (d : Fin 64) :
    val_main_v32 (F := F) x0 (ix6 b oh ov kh kw d)
      = x0 (ix4 b (⟨oh.val + kh.val, by omega⟩ : Fin 112) (⟨ov.val + kw.val, by omega⟩ : Fin 112) d) := by
  rw [val_main_v32_apply]
  have hi : idx_main_v32 (ix6 b oh ov kh kw d) = ix6 b oh kh ov kw d := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [hi, val_main_v31_ix, val_main_v24_ix]

/-- The result at  (b, r, c). -/
theorem val_main_v33_ix (x0 : (⟨S16x112x112x64, .f32⟩ : BufTy).Contents (Elt F)) (b : Fin 16) (r : Fin 12100) (c : Fin 576) :
    val_main_v33 (F := F) x0 (ix3 b r c)
      = x0 (ix4 b (⟨r.val / 110 + c.val / 192, by omega⟩ : Fin 112) (⟨r.val % 110 + c.val / 64 % 3, by omega⟩ : Fin 112)
          (⟨c.val % 64, by omega⟩ : Fin 64)) := by
  unfold val_main_v33
  refine (shapeCast_apply (val_main_v32 (F := F) x0) shapeCasts_S16x110x110x3x3x64_S16x12100x576 (ix3 b r c)
    (ix6 b (⟨r.val / 110, by omega⟩ : Fin 110) (⟨r.val % 110, by omega⟩ : Fin 110) (⟨c.val / 192, by omega⟩ : Fin 3)
      (⟨c.val / 64 % 3, by omega⟩ : Fin 3) (⟨c.val % 64, by omega⟩ : Fin 64)) ?_).trans ?_
  · rw [Shape.rowMajor_val_six, Shape.rowMajor_val_three]
    show (((((b.val * 110 + r.val / 110) * 110 + r.val % 110) * 3 + c.val / 192) * 3 + c.val / 64 % 3) * 64 + c.val % 64)
      = (b.val * 12100 + r.val) * 576 + c.val
    omega
  · rw [val_main_v32_ix]

/-- The reference program's result is the patch extraction of its input, for elements of any float instance: the
    elements are only moved. -/
theorem ref_eq_any (x : Cert.Patch.SIn.Idx → Elt F .f32) :
    Cert.ReferenceIdeal.Read.val_main_v33 (F := F) x = Cert.Patch.patches x := by
  funext j
  obtain ⟨b, r, c, rfl⟩ : ∃ (b : Fin 16) (r : Fin 12100) (c : Fin 576), j = ix3 b r c := ⟨j 0, j 1, j 2, eq_ix3 j⟩
  rw [val_main_v33_ix, Cert.Patch.patches_apply]
  rfl

/-- The reference program's result is the patch extraction of its input (extended-real elements). -/
theorem ref_eq (x : Cert.Patch.SIn.Idx → EReal) :
    Cert.ReferenceIdeal.Read.val_main_v33 (F := Ideal) x = Cert.Patch.patches x :=
  ref_eq_any (F := Ideal) x

end Cert.Patch.Ref

end
-- ==== Proof.lean ====
/-
  Patch extraction: the kernel and the reference compute the same array.

  Both programs take x[b, w, h, d] of shape [16, 112, 112, 64] and return, for every position (oh, ov) of a 3 x 3 window
  sliding with stride one over the two middle axes, the 3 * 3 * 64 elements x[b, oh + kh, ov + kw, d] of the window,
  as an array of shape [16, 110 * 110, 3 * 3 * 64]:

      result[b, r, c] = x[b, r / 110 + c / 192, r % 110 + (c / 64) % 3, c % 64]          (Proof/Spec.lean, `patches`).

  The kernel fills the array of windows [16, 110, 110, 576] block by block — a block is 22 window rows of one batch
  element, filled by nine copies of shifted sub-slabs of the input, one per tap (kh, kw) — and reshapes it
  (Proof/Body.lean: one block; Proof/Value.lean: the blocks tile the array, and the reshape).  The reference gathers rows
  oh + kh, then columns ov + kw, through integer index arrays that stay inside [0, 112), transposes and reshapes
  (Proof/RefIndex.lean, Proof/RefGather.lean, Proof/RefValue.lean).  No arithmetic is done on the elements, so the two
  results agree element by element whatever the elements are; the precondition is not used.

  The three frame claims: the two kernel programs by their generated frames, the reference by its generated run.  The
  idealization rewrote nothing, so there is nothing to preserve.
-/
import proofs.«158176_j2362232013156_2_alg».proof.Defs
import proofs.«158176_j2362232013156_2_alg».proof.Proof.Gen.Kernel
import proofs.«158176_j2362232013156_2_alg».proof.Proof.Gen.Kernel.Skeleton
import proofs.«158176_j2362232013156_2_alg».proof.Proof.Gen.Kernel.Launch
import proofs.«158176_j2362232013156_2_alg».proof.Proof.Gen.Kernel.Points
import proofs.«158176_j2362232013156_2_alg».proof.Proof.Gen.Kernel.Frame
import proofs.«158176_j2362232013156_2_alg».proof.Proof.Gen.KernelIdeal
import proofs.«158176_j2362232013156_2_alg».proof.Proof.Gen.KernelIdeal.Skeleton
import proofs.«158176_j2362232013156_2_alg».proof.Proof.Gen.KernelIdeal.Launch
import proofs.«158176_j2362232013156_2_alg».proof.Proof.Gen.KernelIdeal.Points
import proofs.«158176_j2362232013156_2_alg».proof.Proof.Gen.KernelIdeal.Frame
import proofs.«158176_j2362232013156_2_alg».proof.Proof.Gen.ReferenceIdeal
import proofs.«158176_j2362232013156_2_alg».proof.Proof.Gen.Pre_finite_inputs
import proofs.«158176_j2362232013156_2_alg».proof.Proof.Gen.ReferenceIdeal.Run
import proofs.«158176_j2362232013156_2_alg».proof.Proof.Gen.ReferenceIdeal.Read
import proofs.«158176_j2362232013156_2_alg».proof.Proof.Spec
import proofs.«158176_j2362232013156_2_alg».proof.Proof.Value
import proofs.«158176_j2362232013156_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its argument as it was. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories that agree on the input, the idealized kernel ends with its result at the patches of the input
    (Proof/Value.lean) and the idealized reference with its result at the same function of the same input
    (Proof/RefValue.lean). -/
theorem algebraic : Cert.algebraic_KernelIdeal_ReferenceIdeal := by
  intro m ρ m' ρ' _ hagree
  refine ⟨fun c => Cert.Patch.patches (m ((c.tc : Thread Cert.KernelIdeal.nD Cert.KernelIdeal.τ).loc Cert.KernelIdeal.main_arg0)),
    Cert.KernelIdeal.PatchValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.Patch.Ref.ref_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
